-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x800000 : Shape := ⟨2, ![2, 800000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S32x128 : Shape := ⟨2, ![32, 128]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S32 .f32) (main_arg9 : FVec F S1x32 .f32) (main_arg10 : FVec F S1 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S1x32 .f32 := Host.absf main_arg9
  let main_cst_14 : FVec F S_ .f32 := constant S_ .f32 0x7F800000#32
  let main_v40 : FVec F S1x32 .f32 := broadcastInDim S1x32 ![] bcast_S_S1x32 main_cst_14
  let main_v41 : IVec S1x32 1 := cmpf .olt main_v39 main_v40
  let main_c_15 : IVec S_ 1 := constantI S_ 1 1#1
  let main_v42 : IVec S_ 1 := (fun x v => Host.reduce IntOp.andi x v reducesTo_S1x32_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S128x256 .f32) (main_arg6 : FVec F S128 .f32) (main_arg7 : FVec F S32x128 .f32) (main_arg8 : FVec F S32 .f32) (main_arg9 : FVec F S1x32 .f32) (main_arg10 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S32x128 .f32 := Host.absf main_arg7
  let main_cst_10 : FVec F S_ .f32 := constant S_ .f32 0x7F800000#32
  let main_v30 : FVec F S32x128 .f32 := broadcastInDim S32x128 ![] bcast_S_S32x128 main_cst_10
  let main_v31 : IVec S32x128 1 := cmpf .olt main_v29 main_v30
  let main_c_11 : IVec S_ 1 := constantI S_ 1 1#1
  let main_v32 : IVec S_ 1 := (fun x v => Host.reduce IntOp.andi x v reducesTo_S32x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x256 .f32) (main_arg1 : IVec S2x800000 32) (main_arg2 : FVec F S256x256 .f32) (main_arg3 : FVec F S256 .f32) (main_arg4 : FVec F S256x256 .f32) (main_arg5 : FVec F S128x256 .f32) (main_arg6 : FVec F S128 .f32) (main_arg7 : FVec F S32x128 .f32) (main_arg8 : FVec F S32 .f32) (main_arg9 : FVec F S1x32 .f32) (main_arg10 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_v13 main_v16
-- ==== Kernel.lean ====
abbrev S100000x256 : Shape := ⟨2, ![100000, 256]⟩
abbrev S2x800000 : Shape := ⟨2, ![2, 800000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S32x128 : Shape := ⟨2, ![32, 128]⟩
abbrev S32 : Shape := ⟨1, ![32]⟩
abbrev S1x32 : Shape := ⟨2, ![1, 32]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S100000 : Shape := ⟨1, ![100000]⟩
abbrev S100000x1 : Shape := ⟨2, ![100000, 1]⟩
abbrev S256x128 : Shape := ⟨2, ![256, 128]⟩
abbrev S128x32 : Shape := ⟨2, ![128, 32]⟩
abbrev S1x256 : Shape := ⟨2, ![1, 256]⟩
abbrev S1x128 : Shape := ⟨2, ![1, 128]⟩
abbrev S1x1 : Shape := ⟨2, ![1, 1]⟩
abbrev S2000x256 : Shape := ⟨2, ![2000, 256]⟩
abbrev S2000x1 : Shape := ⟨2, ![2000, 1]⟩
abbrev S2000x128 : Shape := ⟨2, ![2000, 128]⟩
abbrev S2000x32 : Shape := ⟨2, ![2000, 32]⟩
abbrev S2000 : Shape := ⟨1, ![2000]⟩

abbrev nBuf : Space → Nat
  | .hbm => 54
  | .vmem => 17
  | .smem => 0
  | _ => 0

abbrev bufTy : (tb : Table) → Fin (tcTables nBuf tb) → BufTy
  | .hbm, ⟨0, _⟩ => ⟨S100000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S128x256, .f32⟩
  | .hbm, ⟨6, _⟩ => ⟨S128, .f32⟩
  | .hbm, ⟨7, _⟩ => ⟨S32x128, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x256, .f32⟩
  | .hbm, ⟨24, _⟩ => ⟨S_, .f32⟩
  | .hbm, ⟨25, _⟩ => ⟨S100000x256, .f32⟩
  | .hbm, ⟨26, _⟩ => ⟨S800000x1, .i32⟩
  | .hbm, ⟨27, _⟩ => ⟨S100000x256, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S100000, .f32⟩
  | .hbm, ⟨32, _⟩ => ⟨S800000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S256x256, .f32⟩
  | .hbm, ⟨42, _⟩ => ⟨S256x256, .bf16⟩
  | .hbm, ⟨43, _⟩ => ⟨S256x256, .f32⟩
  | .hbm, ⟨44, _⟩ => ⟨S256x256, .bf16⟩
  | .hbm, ⟨45, _⟩ => ⟨S256x128, .f32⟩
  | .hbm, ⟨46, _⟩ => ⟨S256x128, .bf16⟩
  | .hbm, ⟨47, _⟩ => ⟨S128x32, .f32⟩
  | .hbm, ⟨48, _⟩ => ⟨S128x32, .bf16⟩
  | .hbm, ⟨49, _⟩ => ⟨S1x256, .f32⟩
  | .hbm, ⟨50, _⟩ => ⟨S1x128, .f32⟩
  | .hbm, ⟨51, _⟩ => ⟨S1x32, .f32⟩
  | .hbm, ⟨52, _⟩ => ⟨S1x1, .f32⟩
  | .hbm, ⟨53, _⟩ => ⟨S100000x1, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x1, .f32⟩
  | .local _ .vmem, ⟨5, _⟩ => ⟨S2000x1, .f32⟩
  | .local _ .vmem, ⟨6, _⟩ => ⟨S256x256, .bf16⟩
  | .local _ .vmem, ⟨7, _⟩ => ⟨S1x256, .f32⟩
  | .local _ .vmem, ⟨8, _⟩ => ⟨S256x256, .bf16⟩
  | .local _ .vmem, ⟨9, _⟩ => ⟨S256x128, .bf16⟩
  | .local _ .vmem, ⟨10, _⟩ => ⟨S1x128, .f32⟩
  | .local _ .vmem, ⟨11, _⟩ => ⟨S128x32, .bf16⟩
  | .local _ .vmem, ⟨12, _⟩ => ⟨S1x32, .f32⟩
  | .local _ .vmem, ⟨13, _⟩ => ⟨S1x32, .f32⟩
  | .local _ .vmem, ⟨14, _⟩ => ⟨S1x1, .f32⟩
  | .local _ .vmem, ⟨15, _⟩ => ⟨S2000x1, .f32⟩
  | .local _ .vmem, ⟨16, _⟩ => ⟨S2000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x32 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x256 : S_.BroadcastsInDim S100000x256 (![] : Fin 0 → Fin S100000x256.rank)
  bcast_S_S100000 : S_.BroadcastsInDim S100000 (![] : Fin 0 → Fin S100000.rank)
  shapeCasts_S100000_S100000x1 : S100000.ShapeCasts S100000x1
  transposes_S256x256_S256x256_1_0 : S256x256.Transposes [1, 0] S256x256
  bitsLt_bf16_f32 : FTy.bits .bf16 < FTy.bits .f32
  transposes_S128x256_S256x128_1_0 : S128x256.Transposes [1, 0] S256x128
  transposes_S32x128_S128x32_1_0 : S32x128.Transposes [1, 0] S128x32
  shapeCasts_S256_S1x256 : S256.ShapeCasts S1x256
  shapeCasts_S128_S1x128 : S128.ShapeCasts S1x128
  shapeCasts_S32_S1x32 : S32.ShapeCasts S1x32
  shapeCasts_S1_S1x1 : S1.ShapeCasts S1x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  reduces_S2000x32_S2000 : S2000x32.Reduces [1] S2000
  shapeCasts_S2000_S2000x1 : S2000.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  scatter_S100000_S800000x1_S800000_n_0_0_1_wf : ScatterDims.WF S100000 S800000x1 S800000 [] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  dot_S2000x128_S128x32_S2000x32_1_0_0_1_n_n_wf : DotDims.WF S2000x128 S128x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .bf16 = 32 ∨ (Rect.block (s := S256x128) S256x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x32.size a ≤ S128x32.size a
  hwx0_8 : ∀ i : grid0.Coords, EltTy.bits .bf16 = 32 ∨ (Rect.block (s := S128x32) S128x32.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x1.size a ≤ S100000x1.size a
  hwx0_12 : ∀ i : grid0.Coords, EltTy.bits .f32 = 32 ∨ (Rect.block (s := S100000x1) S2000x1.size (cc0_transform_12 i) (hinb0_12 i)).WholeWords (EltTy.packing .f32)

variable [Facts₀]

def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf

abbrev win0_0 : Pipeline.Window sig grid0 :=
  Pipeline.Window.ofSpec (Memref.whole main_v13) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S128x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v33) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v34) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v35) S2000x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x800000 : Shape := ⟨2, ![2, 800000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S32x128 : Shape := ⟨2, ![32, 128]⟩
abbrev S32 : Shape := ⟨1, ![32]⟩
abbrev S1x32 : Shape := ⟨2, ![1, 32]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S100000 : Shape := ⟨1, ![100000]⟩
abbrev S100000x1 : Shape := ⟨2, ![100000, 1]⟩
abbrev S1x256 : Shape := ⟨2, ![1, 256]⟩
abbrev S256x128 : Shape := ⟨2, ![256, 128]⟩
abbrev S100000x128 : Shape := ⟨2, ![100000, 128]⟩
abbrev S1x128 : Shape := ⟨2, ![1, 128]⟩
abbrev S128x32 : Shape := ⟨2, ![128, 32]⟩
abbrev S100000x32 : Shape := ⟨2, ![100000, 32]⟩
abbrev S32x1 : Shape := ⟨2, ![32, 1]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S128x256, .f32⟩
  | .hbm, ⟨6, _⟩ => ⟨S128, .f32⟩
  | .hbm, ⟨7, _⟩ => ⟨S32x128, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x256, .f32⟩
  | .hbm, ⟨24, _⟩ => ⟨S_, .f32⟩
  | .hbm, ⟨25, _⟩ => ⟨S100000x256, .f32⟩
  | .hbm, ⟨26, _⟩ => ⟨S800000x1, .i32⟩
  | .hbm, ⟨27, _⟩ => ⟨S100000x256, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S100000, .f32⟩
  | .hbm, ⟨32, _⟩ => ⟨S800000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x256, .f32⟩
  | .hbm, ⟨39, _⟩ => ⟨S100000x256, .f32⟩
  | .hbm, ⟨40, _⟩ => ⟨S256x256, .f32⟩
  | .hbm, ⟨41, _⟩ => ⟨S100000x256, .f32⟩
  | .hbm, ⟨42, _⟩ => ⟨S1x256, .f32⟩
  | .hbm, ⟨43, _⟩ => ⟨S100000x256, .f32⟩
  | .hbm, ⟨44, _⟩ => ⟨S100000x256, .f32⟩
  | .hbm, ⟨45, _⟩ => ⟨S256x256, .f32⟩
  | .hbm, ⟨46, _⟩ => ⟨S100000x256, .f32⟩
  | .hbm, ⟨47, _⟩ => ⟨S100000x256, .f32⟩
  | .hbm, ⟨48, _⟩ => ⟨S_, .f32⟩
  | .hbm, ⟨49, _⟩ => ⟨S100000x256, .f32⟩
  | .hbm, ⟨50, _⟩ => ⟨S100000x256, .f32⟩
  | .hbm, ⟨51, _⟩ => ⟨S100000x256, .f32⟩
  | .hbm, ⟨52, _⟩ => ⟨S256x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S128x32, .f32⟩
  | .hbm, ⟨61, _⟩ => ⟨S100000x32, .f32⟩
  | .hbm, ⟨62, _⟩ => ⟨S1x32, .f32⟩
  | .hbm, ⟨63, _⟩ => ⟨S100000x32, .f32⟩
  | .hbm, ⟨64, _⟩ => ⟨S100000x32, .f32⟩
  | .hbm, ⟨65, _⟩ => ⟨S_, .f32⟩
  | .hbm, ⟨66, _⟩ => ⟨S100000x32, .f32⟩
  | .hbm, ⟨67, _⟩ => ⟨S100000x32, .f32⟩
  | .hbm, ⟨68, _⟩ => ⟨S32x1, .f32⟩
  | .hbm, ⟨69, _⟩ => ⟨S100000x1, .f32⟩
  | .hbm, ⟨70, _⟩ => ⟨S1x1, .f32⟩
  | .hbm, ⟨71, _⟩ => ⟨S100000x1, .f32⟩
  | .hbm, ⟨72, _⟩ => ⟨S100000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call1_cst : Ref sig .tc := ⟨.hbm, 57, rfl⟩
abbrev main_call1_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call2_cst : Ref sig .tc := ⟨.hbm, 65, rfl⟩
abbrev main_call2_v0 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  transposes_S256x256_S256x256_1_0 : S256x256.Transposes [1, 0] S256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S32x128_S128x32_1_0 : S32x128.Transposes [1, 0] S128x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  transposes_S1x32_S32x1_1_0 : S1x32.Transposes [1, 0] S32x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  scatter_S100000_S800000x1_S800000_n_0_0_1_wf : ScatterDims.WF S100000 S800000x1 S800000 [] [0] [0] 1
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []
  dot_S100000x128_S128x32_S100000x32_1_0_0_1_n_n_wf : DotDims.WF S100000x128 S128x32 S100000x32 [1] [0] [0] [1] [] []
  dot_S100000x32_S32x1_S100000x1_1_0_0_1_n_n_wf : DotDims.WF S100000x32 S32x1 S100000x1 [1] [0] [0] [1] [] []

variable [Facts₀]

def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.LibDivLaws.lean ====
/-
  Three laws of division on the extended reals that a row normalisation meets.

  On `[-∞, +∞]` the quotient `x / y` is `x · y⁻¹` for `y ≠ 0` (with `(±∞)⁻¹ = 0`), and at `y = 0` it is `+∞`, `-∞` or the
  bottom element by the sign of `x`. The square root is `√x` on `[0, +∞]` and the bottom element below zero; the
  reciprocal square root is `+∞` at `0`, `(√x)⁻¹` at a positive real, `0` at `+∞` and the bottom element below zero.

  * `mul_one_div`: for `c ≠ 0`, multiplying by `1 / c` is dividing by `c` — both are the product with `c⁻¹`; nothing
    needs to be finite.
  * `max_one_ne_zero`: a count clamped below at one is not zero.
  * `div_sqrt_eq_mul_rsqrt`: for `q > 0`, dividing by `√q` is multiplying by the reciprocal square root of `q` — at
    `+∞` both factors are `0`, at a positive real `√q` is a nonzero real whose inverse is the reciprocal square root.
    At `q = 0` the law FAILS for `a = 0`: `0 / √0` is the bottom element while `0 · (+∞) = 0`.
-/
import Idealize.ShloMosaic.PureOps.Ideal
import Idealize.ShloMosaic.PureOps.Ideal.Laws

noncomputable section

namespace Cert.UnitRows

open Idealize.ShloMosaic

/-- Multiplying by `1 / c` is dividing by `c`, for `c ≠ 0`: both are the product with `c⁻¹`. -/
theorem mul_one_div (a c : EReal) (hc : c ≠ 0) : a * Ideal.div 1 c = Ideal.div a c := by
  unfold Ideal.div
  rw [if_neg hc, if_neg hc, one_mul]

/-- The maximum of anything with one is not zero. -/
theorem max_one_ne_zero (c : EReal) : max c 1 ≠ 0 := by
  intro h
  have h1 : (1 : EReal) ≤ max c 1 := le_max_right c 1
  rw [h] at h1
  exact absurd h1 (by norm_num)

/-- For `q > 0`, dividing by `√q` is multiplying by `rsqrt q`. -/
theorem div_sqrt_eq_mul_rsqrt (a q : EReal) (hq : 0 < q) : Ideal.div a (Ideal.sqrt q) = a * Ideal.rsqrt q := by
  induction q using EReal.rec with
  | bot => exact absurd hq not_lt_bot
  | top =>
    rw [show Ideal.sqrt ⊤ = ⊤ from rfl, show Ideal.rsqrt ⊤ = 0 from rfl, Ideal.div, if_neg (by simp), EReal.inv_top]
  | coe r =>
    have hr : 0 < r := by exact_mod_cast hq
    have hs : Real.sqrt r ≠ 0 := (Real.sqrt_pos.2 hr).ne'
    have hsq : Ideal.sqrt (r : EReal) = (Real.sqrt r : EReal) := by
      show (if r < 0 then ⊥ else (Real.sqrt r : EReal)) = _
      rw [if_neg (not_lt.2 hr.le)]
    have hrs : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.2 hr.le), if_neg hr.ne']
    have hne : (Real.sqrt r : EReal) ≠ 0 := by exact_mod_cast hs
    rw [hsq, hrs, Ideal.div, if_neg hne, EReal.coe_inv]

end Cert.UnitRows

end
-- ==== Proof.NodeNet.lean ====
/-
  One graph layer with mean aggregation and a residual term, followed by a three-layer perceptron, computed one row per
  node on arrays of extended reals.

  For node `r`, with neighbour sums `a (r, ·)`, the node's own features `x (r, ·)` and a clamped neighbour count `c r`:

      mean (r, k) = a (r, k) / c r                                    (`divRows`; or `a (r, k) · s r` with `s r = 1 / c r`: `scaleRows`)
      g (r, j)    = max ((∑ₖ mean (r, k) · wl (k, j) + bl j) + ∑ₖ x (r, k) · wr (k, j), z) + x (r, j)        (`graphLayer`)
      h₁ (r, j)   = max (∑ₖ g (r, k) · w1 (k, j) + b1 j, z)                                                   (`dense`)
      h₂ (r, j)   = max (∑ₖ h₁ (r, k) · w2 (k, j) + b2 j, z)                                                  (`dense`)
      out (r)     = ∑ₖ h₂ (r, k) · w3 k + b3                                                                  (`head`)

  Two facts are proved. First, the two spellings of the mean are one array as soon as every `c r` is nonzero: off zero
  the quotient on the extended reals IS the product with the inverse, and `1 / c` IS that inverse; the entries are not
  rearranged, so none needs to be finite. Second, row `r` of every map depends on row `r` of its row-indexed operands
  only, so the maps applied to a block of rows give the same block of rows of the maps applied to the whole arrays
  (`net_rows`).
-/
import Idealize.ShloMosaic.Lib.ValueIdx
import Idealize.ShloMosaic.PureOps.Ideal.Laws
import proofs.«101585_j23192823398472_2_alg».proof.Proof.LibPlainProduct
import proofs.«101585_j23192823398472_2_alg».proof.Proof.LibDivLaws

noncomputable section

open scoped BigOperators

namespace Cert.NodeNet

open Idealize.ShloMosaic Idealize.ShloMosaic.ValueIdx Idealize.ShloMosaic.PlainProduct

/-- The zero word of the maxima, as an extended real (the same word in both programs, never evaluated). -/
abbrev zeroWord : EReal := Ideal.ofBits .f32 0x00000000#32

/-- An `n × m` array of extended reals. -/
abbrev Arr (n m : Nat) := FVec Ideal ⟨2, ![n, m]⟩ .f32

variable {R B K N : Nat}

/-- Row `r` of `a` times `s r`. -/
def scaleRows (a : Arr R K) (s : Fin R → EReal) : Arr R K :=
  fun j => a j * s (j 0)

/-- Row `r` of `a` divided by `c r`. -/
def divRows (a : Arr R K) (c : Fin R → EReal) : Arr R K :=
  fun j => Ideal.div (a j) (c (j 0))

/-- The graph layer with its residual term: `max ((a' · wl + bl) + x · wr, z) + x`. -/
def graphLayer (z : EReal) (a' x : Arr R 256) (wl wr : Arr 256 256) (bl : Fin 256 → EReal) : Arr R 256 :=
  fun i => max ((rowsByCols a' wl i + bl (i 1)) + rowsByCols x wr i) z + x i

/-- A dense layer clipped below at `z`: `max (h · w + b, z)`. -/
def dense (z : EReal) (h : Arr R K) (w : Arr K N) (b : Fin N → EReal) : Arr R N :=
  fun i => max (rowsByCols h w i + b (i 1)) z

/-- The last layer, one output per row: `∑ₖ h (r, k) · w k + b`. -/
def head (h : Arr R 32) (w : Fin 32 → EReal) (b : EReal) : Arr R 1 :=
  fun i => (∑ k : Fin 32, h (ix2 (n0 := R) (n1 := 32) (i 0) k) * w k) + b

/-- The whole map: graph layer, two clipped dense layers, the last layer. -/
def net (z : EReal) (a' x : Arr R 256) (wl wr : Arr 256 256) (bl : Fin 256 → EReal) (w1 : Arr 256 128) (b1 : Fin 128 → EReal)
    (w2 : Arr 128 32) (b2 : Fin 32 → EReal) (w3 : Fin 32 → EReal) (b3 : EReal) : Arr R 1 :=
  head (dense z (dense z (graphLayer z a' x wl wr bl) w1 b1) w2 b2) w3 b3

/-- The two means are one array when every divisor is nonzero and `s` holds the reciprocals. -/
theorem scaleRows_eq_divRows (a : Arr R K) (s c : Fin R → EReal) (hs : ∀ r, s r = Ideal.div 1 (c r)) (hc : ∀ r, c r ≠ 0) :
    scaleRows a s = divRows a c := by
  funext j
  show a j * s (j 0) = Ideal.div (a j) (c (j 0))
  rw [hs (j 0), Cert.UnitRows.mul_one_div _ _ (hc (j 0))]

/-- Rows `e r` of the scaled array are the scaled rows `e r`. -/
theorem scaleRows_rows (a : Arr R K) (s : Fin R → EReal) (ab : Arr B K) (sb : Fin B → EReal) (e : Fin B → Fin R)
    (ha : ∀ (r : Fin B) (k : Fin K), ab (ix2 (n0 := B) (n1 := K) r k) = a (ix2 (n0 := R) (n1 := K) (e r) k))
    (hs : ∀ r : Fin B, sb r = s (e r)) (r : Fin B) (k : Fin K) :
    scaleRows ab sb (ix2 (n0 := B) (n1 := K) r k) = scaleRows a s (ix2 (n0 := R) (n1 := K) (e r) k) := by
  show ab (ix2 (n0 := B) (n1 := K) r k) * sb r = a (ix2 (n0 := R) (n1 := K) (e r) k) * s (e r)
  rw [ha, hs]

/-- Rows `e r` of the graph layer are the layer of rows `e r` of its row-indexed operands. -/
theorem graphLayer_rows (z : EReal) (a' x : Arr R 256) (wl wr : Arr 256 256) (bl : Fin 256 → EReal) (ab xb : Arr B 256) (e : Fin B → Fin R)
    (ha : ∀ (r : Fin B) (k : Fin 256), ab (ix2 (n0 := B) (n1 := 256) r k) = a' (ix2 (n0 := R) (n1 := 256) (e r) k))
    (hx : ∀ (r : Fin B) (k : Fin 256), xb (ix2 (n0 := B) (n1 := 256) r k) = x (ix2 (n0 := R) (n1 := 256) (e r) k))
    (r : Fin B) (k : Fin 256) :
    graphLayer z ab xb wl wr bl (ix2 (n0 := B) (n1 := 256) r k) = graphLayer z a' x wl wr bl (ix2 (n0 := R) (n1 := 256) (e r) k) := by
  show max ((rowsByCols ab wl (ix2 (n0 := B) (n1 := 256) r k) + bl k) + rowsByCols xb wr (ix2 (n0 := B) (n1 := 256) r k)) z
        + xb (ix2 (n0 := B) (n1 := 256) r k)
      = max ((rowsByCols a' wl (ix2 (n0 := R) (n1 := 256) (e r) k) + bl k) + rowsByCols x wr (ix2 (n0 := R) (n1 := 256) (e r) k)) z
        + x (ix2 (n0 := R) (n1 := 256) (e r) k)
  rw [rowsByCols_rows a' wl ab e ha (ix2 (n0 := B) (n1 := 256) r k), rowsByCols_rows x wr xb e hx (ix2 (n0 := B) (n1 := 256) r k), hx r k]
  rfl

/-- Rows `e r` of a dense layer are the layer of rows `e r` of its input. -/
theorem dense_rows (z : EReal) (h : Arr R K) (w : Arr K N) (b : Fin N → EReal) (hb : Arr B K) (e : Fin B → Fin R)
    (hh : ∀ (r : Fin B) (k : Fin K), hb (ix2 (n0 := B) (n1 := K) r k) = h (ix2 (n0 := R) (n1 := K) (e r) k))
    (r : Fin B) (k : Fin N) :
    dense z hb w b (ix2 (n0 := B) (n1 := N) r k) = dense z h w b (ix2 (n0 := R) (n1 := N) (e r) k) := by
  show max (rowsByCols hb w (ix2 (n0 := B) (n1 := N) r k) + b k) z = max (rowsByCols h w (ix2 (n0 := R) (n1 := N) (e r) k) + b k) z
  rw [rowsByCols_rows h w hb e hh (ix2 (n0 := B) (n1 := N) r k)]
  rfl

/-- Row `e r` of the last layer is the layer of row `e r` of its input. -/
theorem head_rows (h : Arr R 32) (w : Fin 32 → EReal) (b : EReal) (hb : Arr B 32) (e : Fin B → Fin R)
    (hh : ∀ (r : Fin B) (k : Fin 32), hb (ix2 (n0 := B) (n1 := 32) r k) = h (ix2 (n0 := R) (n1 := 32) (e r) k))
    (r : Fin B) (u : Fin 1) :
    head hb w b (ix2 (n0 := B) (n1 := 1) r u) = head h w b (ix2 (n0 := R) (n1 := 1) (e r) u) := by
  show (∑ k : Fin 32, hb (ix2 (n0 := B) (n1 := 32) r k) * w k) + b = (∑ k : Fin 32, h (ix2 (n0 := R) (n1 := 32) (e r) k) * w k) + b
  rw [Finset.sum_congr rfl fun k _ => congrArg (fun v => v * w k) (hh r k)]

/-- A block of rows of the whole map is the map of the same rows: with `ab`, `sb`, `xb` holding rows `e r` of `a`, `s`, `x`. -/
theorem net_rows (z : EReal) (a x : Arr R 256) (s : Fin R → EReal) (wl wr : Arr 256 256) (bl : Fin 256 → EReal) (w1 : Arr 256 128)
    (b1 : Fin 128 → EReal) (w2 : Arr 128 32) (b2 : Fin 32 → EReal) (w3 : Fin 32 → EReal) (b3 : EReal)
    (ab xb : Arr B 256) (sb : Fin B → EReal) (e : Fin B → Fin R)
    (ha : ∀ (r : Fin B) (k : Fin 256), ab (ix2 (n0 := B) (n1 := 256) r k) = a (ix2 (n0 := R) (n1 := 256) (e r) k))
    (hs : ∀ r : Fin B, sb r = s (e r))
    (hx : ∀ (r : Fin B) (k : Fin 256), xb (ix2 (n0 := B) (n1 := 256) r k) = x (ix2 (n0 := R) (n1 := 256) (e r) k))
    (r : Fin B) (u : Fin 1) :
    net z (scaleRows ab sb) xb wl wr bl w1 b1 w2 b2 w3 b3 (ix2 (n0 := B) (n1 := 1) r u)
      = net z (scaleRows a s) x wl wr bl w1 b1 w2 b2 w3 b3 (ix2 (n0 := R) (n1 := 1) (e r) u) :=
  head_rows _ w3 b3 _ e
    (dense_rows z _ w2 b2 _ e
      (dense_rows z _ w1 b1 _ e
        (graphLayer_rows z (scaleRows a s) x wl wr bl (scaleRows ab sb) xb e (scaleRows_rows a s ab sb e ha hs) hx))) r u

/-! ## The host's spelling of the maps

The host computes each map on whole arrays: a general dot product with the plain dimension numbers, a bias already
repeated over the rows (`bb`), a maximum with an array of zero words (`zz`). Each is the map above as soon as `bb` reads
the bias of its column and `zz` reads the zero word everywhere. -/

/-- The host's graph layer. -/
theorem graphLayer_host (d : DotDims ⟨2, ![R, 256]⟩ ⟨2, ![256, 256]⟩ ⟨2, ![R, 256]⟩) (hd : d = DotDims.plain R 256 256)
    (a' x : Arr R 256) (wl wr : Arr 256 256) (bb zz : Arr R 256) (bl : Fin 256 → EReal)
    (hbb : ∀ (r : Fin R) (k : Fin 256), bb (ix2 (n0 := R) (n1 := 256) r k) = bl k) (hzz : ∀ i, zz i = zeroWord) :
    addf (maximumf (addf (addf (Host.dotGeneral d none a' wl) bb) (Host.dotGeneral d none x wr)) zz) x
      = graphLayer zeroWord a' x wl wr bl := by
  subst hd
  funext i
  obtain ⟨r, k, rfl⟩ : ∃ (r : Fin R) (k : Fin 256), i = ix2 r k := ⟨i 0, i 1, eq_ix2 i⟩
  show max ((FloatOps.dotGeneral (DotDims.plain R 256 256) none .single a' wl (ix2 r k) + bb (ix2 r k))
        + FloatOps.dotGeneral (DotDims.plain R 256 256) none .single x wr (ix2 r k)) (zz (ix2 r k)) + x (ix2 r k) = _
  rw [dotGeneral_plain, dotGeneral_plain, hbb, hzz]
  rfl

/-- The host's clipped dense layer. -/
theorem dense_host (d : DotDims ⟨2, ![R, K]⟩ ⟨2, ![K, N]⟩ ⟨2, ![R, N]⟩) (hd : d = DotDims.plain R K N)
    (h : Arr R K) (w : Arr K N) (bb zz : Arr R N) (b : Fin N → EReal)
    (hbb : ∀ (r : Fin R) (k : Fin N), bb (ix2 (n0 := R) (n1 := N) r k) = b k) (hzz : ∀ i, zz i = zeroWord) :
    maximumf (addf (Host.dotGeneral d none h w) bb) zz = dense zeroWord h w b := by
  subst hd
  funext i
  obtain ⟨r, k, rfl⟩ : ∃ (r : Fin R) (k : Fin N), i = ix2 r k := ⟨i 0, i 1, eq_ix2 i⟩
  show max (FloatOps.dotGeneral (DotDims.plain R K N) none .single h w (ix2 r k) + bb (ix2 r k)) (zz (ix2 r k)) = _
  rw [dotGeneral_plain, hbb, hzz]
  rfl

/-- The host's last layer: a product with the weights as one column `wc`, plus the bias repeated over the rows. -/
theorem head_host (d : DotDims ⟨2, ![R, 32]⟩ ⟨2, ![32, 1]⟩ ⟨2, ![R, 1]⟩) (hd : d = DotDims.plain R 32 1)
    (h : Arr R 32) (wc : Arr 32 1) (bb : Arr R 1) (w : Fin 32 → EReal) (b : EReal)
    (hwc : ∀ k : Fin 32, wc (ix2 (n0 := 32) (n1 := 1) k (0 : Fin 1)) = w k) (hbb : ∀ i, bb i = b) :
    addf (Host.dotGeneral d none h wc) bb = head h w b := by
  subst hd
  funext i
  obtain ⟨r, u, rfl⟩ : ∃ (r : Fin R) (u : Fin 1), i = ix2 r u := ⟨i 0, i 1, eq_ix2 i⟩
  have hu : u = (0 : Fin 1) := Subsingleton.elim _ _
  subst hu
  show FloatOps.dotGeneral (DotDims.plain R 32 1) none .single h wc (ix2 r (0 : Fin 1)) + bb (ix2 r (0 : Fin 1)) = _
  rw [dotGeneral_plain, hbb]
  show (∑ k : Fin 32, h (ix2 r k) * wc (ix2 k (0 : Fin 1))) + b = (∑ k : Fin 32, h (ix2 r k) * w k) + b
  rw [Finset.sum_congr rfl fun k _ => congrArg (fun v => h (ix2 r k) * v) (hwc k)]

end Cert.NodeNet

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.LibRows.lean ====
/-
  One-axis reductions and keep-dimension layout operations read at coordinates, at the exact values.

  For a two-axis array `[m, n]`: the sum and the maximum over the second axis, at row `p`, as the sum and the fold of
  `max` over `s : Fin n` of the entry `(p, s)`. For a three-axis array `[a, b, c]`: the sum over the last axis at
  `(p, s)` and the sum over the middle axis at `(p, h)`. And the casts and broadcasts that insert or repeat a unit
  axis: `[a, b] → [a, 1, b]`, `[a, b] → [a, b, 1]`, `[a, 1, c] → [a, b, c]`, `[1, 1, c] → [a, b, c]`,
  `[a, b, 1] → [a, b, c]`. Each lemma names the operand's index by coordinates, so that it applies by unification.
-/
import Idealize.ShloMosaic.Lib.Pipeline.Value
import Idealize.ShloMosaic.Lib.ValueIdx
import Idealize.ShloMosaic.PureOps.Ideal.Laws

namespace Cert.LibRows

open Idealize.ShloMosaic Idealize.ShloMosaic.ValueIdx

variable {φ : FTy}

/-! ## Reductions over one axis -/

/-- The sum over the second axis of `[m, n]`, at row `p`: `∑ₛ x (p, s)`. -/
theorem rowSum_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.add.neutral φ hφ)
    (p : Fin m) :
    multiReduction .add [(1 : Fin 2)] ⟨1, ![m]⟩ x acc h hφ hacc (ix1 p) = ∑ s : Fin n, x (ix2 p s) :=
  (Ideal.multiReduction_add_single x acc h hφ hacc (ix1 p)).trans
    (Finset.sum_congr rfl fun s _ => congrArg x (funext fun a => Fin.ext (by
      match a with
      | ⟨0, _⟩ => rfl
      | ⟨1, _⟩ => rfl)))

/-- The maximum over the second axis of `[m, n]`, at row `p`: the fold of `max`, from the accumulator's value, over
    `s` of `x (p, s)`. -/
theorem rowMax_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.maximumf.neutral φ hφ)
    (p : Fin m) :
    multiReduction .maximumf [(1 : Fin 2)] ⟨1, ![m]⟩ x acc h hφ hacc (ix1 p)
      = (Finset.univ : Finset (Fin n)).fold max (Ideal.ofBits φ acc) (fun s => x (ix2 p s)) :=
  (Ideal.multiReduction_maximumf_single x acc h hφ hacc (ix1 p)).trans
    (congrArg ((Finset.univ : Finset (Fin n)).fold max (Ideal.ofBits φ acc)) (funext fun s => congrArg x (funext fun a => Fin.ext (by
      match a with
      | ⟨0, _⟩ => rfl
      | ⟨1, _⟩ => rfl))))

/-- The sum over the LAST axis of `[a, b, c]`, at `(p, s)`: `∑ₖ x (p, s, k)`. -/
theorem lastSum_apply {a b c : ℕ} (x : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (p : Fin a) (s : Fin b) :
    multiReduction .add [(2 : Fin 3)] ⟨2, ![a, b]⟩ x acc h hφ hacc (ix2 p s) = ∑ k : Fin c, x (ix3 p s k) :=
  (Ideal.multiReduction_add_single x acc h hφ hacc (ix2 p s)).trans
    (Finset.sum_congr rfl fun k _ => congrArg x (funext fun d => Fin.ext (by
      match d with
      | ⟨0, _⟩ => rfl
      | ⟨1, _⟩ => rfl
      | ⟨2, _⟩ => rfl)))

/-- The sum over the MIDDLE axis of `[a, b, c]`, at `(p, z)`: `∑ₛ x (p, s, z)`. -/
theorem midSum_apply {a b c : ℕ} (x : FVec Ideal ⟨3, ![a, b, c]⟩ φ) (acc : BitVec φ.bits)
    (h : (⟨3, ![a, b, c]⟩ : Shape).Reduces [(1 : Fin 3)] ⟨2, ![a, c]⟩) (hφ : FKind.Formats φ) (hacc : acc = FKind.add.neutral φ hφ)
    (p : Fin a) (z : Fin c) :
    multiReduction .add [(1 : Fin 3)] ⟨2, ![a, c]⟩ x acc h hφ hacc (ix2 p z) = ∑ s : Fin b, x (ix3 p s z) :=
  (Ideal.multiReduction_add_single x acc h hφ hacc (ix2 p z)).trans
    (Finset.sum_congr rfl fun s _ => congrArg x (funext fun d => Fin.ext (by
      match d with
      | ⟨0, _⟩ => rfl
      | ⟨1, _⟩ => rfl
      | ⟨2, _⟩ => rfl)))

/-! ## Unit axes inserted and repeated -/

variable {α : Type}

/-- `[a, b]` cast to `[a, 1, b]` reads, at `(p, u, z)`, the operand at `(p, z)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (z : Fin b) :
    shapeCast ⟨3, ![a, 1, b]⟩ x h (ix3 p u z) = x (ix2 p z) :=
  shapeCast_apply x h _ _ (by
    have hu : u.val = 0 := by omega
    rw [Shape.rowMajor_val_two, Shape.rowMajor_val_three]
    show p.val * b + z.val = (p.val * 1 + u.val) * b + z.val
    rw [hu, Nat.mul_one, Nat.add_zero])

/-- `[a, b]` cast to `[a, b, 1]` reads, at `(p, s, u)`, the operand at `(p, s)`. -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_two, Shape.rowMajor_val_three]
    show p.val * b + s.val = (p.val * b + s.val) * 1 + u.val
    rw [hu, Nat.mul_one, Nat.add_zero])

/-- `[a, 1, c]` broadcast to `[a, b, c]` reads, at `(p, s, z)`, the operand at `(p, 0, z)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (z : Fin c) :
    broadcastTo ⟨3, ![a, b, c]⟩ v h (ix3 p s z) = v (ix3 p (0 : Fin 1) z) := by
  refine broadcastTo_apply v h (ix3 p s z) (ix3 p (0 : Fin 1) z) fun ax => ?_
  match ax with
  | ⟨0, _⟩ =>
    show p.val = if a = 1 then 0 else p.val
    split
    · have := p.isLt; omega
    · rfl
  | ⟨1, _⟩ => rfl
  | ⟨2, _⟩ =>
    show z.val = if c = 1 then 0 else z.val
    split
    · have := z.isLt; omega
    · rfl

/-- `[1, 1, c]` broadcast to `[a, b, c]` reads, at `(p, s, z)`, the operand at `(0, 0, z)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (z : Fin c) :
    broadcastTo ⟨3, ![a, b, c]⟩ v h (ix3 p s z) = v (ix3 (0 : Fin 1) (0 : Fin 1) z) := by
  refine broadcastTo_apply v h (ix3 p s z) (ix3 (0 : Fin 1) (0 : Fin 1) z) fun ax => ?_
  match ax with
  | ⟨0, _⟩ => rfl
  | ⟨1, _⟩ => rfl
  | ⟨2, _⟩ =>
    show z.val = if c = 1 then 0 else z.val
    split
    · have := z.isLt; omega
    · rfl

/-- `[a, b, 1]` broadcast to `[a, b, c]` reads, at `(p, s, z)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (z : Fin c) :
    broadcastTo ⟨3, ![a, b, c]⟩ v h (ix3 p s z) = v (ix3 p s (0 : Fin 1)) := by
  refine broadcastTo_apply v h (ix3 p s z) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Cert.LibRows
-- ==== Proof.BlockBody.lean ====
/-
  The body of the kernel on one block of rows, as the maps of `NodeNet`.

  The body loads a block of neighbour sums, the same rows of the node features and of the reciprocal counts, and the
  weights and biases whole. Its arithmetic, stage by stage: the neighbour sums times the reciprocal count of their row
  (`scaleRows`); two matrix products into a zero accumulator, a bias row repeated over the rows, a maximum with the zero
  word and the residual term (`graphLayer`); twice a matrix product, a bias row and a maximum (`dense`); and a product
  with one weight row summed along the row, plus a bias (`head`). A change of float format is the identity on the
  extended reals, a cast of an array to its own shape is the array, and a matrix product into zero is the plain sum of
  products — so each stage IS the corresponding map, entry by entry.
-/
import proofs.«101585_j23192823398472_2_alg».proof.Proof.Gen.KernelIdeal.Skeleton
import proofs.«101585_j23192823398472_2_alg».proof.Proof.NodeNet
import proofs.«101585_j23192823398472_2_alg».proof.Proof.LibLayout
import proofs.«101585_j23192823398472_2_alg».proof.Proof.LibRows
import Idealize.ShloMosaic.Lib.ValueLayout
import Idealize.ShloMosaic.Lib.Pipeline.Value

noncomputable section

open scoped BigOperators

namespace Cert.NodeNet.Block

open Idealize.ShloMosaic Idealize.ShloMosaic.ValueIdx Idealize.ShloMosaic.PlainProduct Cert.NodeNet

variable {B K N : Nat}

/-- Neighbour sums times the reciprocal count of their row, then narrowed: `scaleRows`. -/
theorem meanBlock (v0 : FVec Ideal ⟨2, ![B, K]⟩ .f32) (v2 : FVec Ideal ⟨2, ![B, 1]⟩ .f32)
    (h0 : (⟨2, ![B, K]⟩ : Shape).ShapeCasts ⟨2, ![B, K]⟩) (h2 : (⟨2, ![B, 1]⟩ : Shape).ShapeCasts ⟨2, ![B, 1]⟩)
    (hb : (⟨2, ![B, 1]⟩ : Shape).Broadcasts ⟨2, ![B, K]⟩) (hlt : FTy.bits .bf16 < FTy.bits .f32) :
    truncf .bf16 (mulf (shapeCast ⟨2, ![B, K]⟩ v0 h0) (broadcastTo ⟨2, ![B, K]⟩ (shapeCast ⟨2, ![B, 1]⟩ v2 h2) hb)) hlt
      = scaleRows v0 (fun r => v2 (ix2 (n0 := B) (n1 := 1) r (0 : Fin 1))) := by
  funext i
  obtain ⟨r, k, rfl⟩ : ∃ (r : Fin B) (k : Fin K), i = ix2 r k := ⟨i 0, i 1, eq_ix2 i⟩
  rw [shapeCast_self, shapeCast_self]
  show v0 (ix2 r k) * broadcastTo ⟨2, ![B, K]⟩ v2 hb (ix2 r k) = v0 (ix2 r k) * v2 (ix2 (n0 := B) (n1 := 1) r (0 : Fin 1))
  rw [Cert.LibLayout.broadcastTo_a1_ab_apply]

/-- Two products into zero, the bias row, the maximum with the zero word, the residual term: `graphLayer`. -/
theorem graphBlock (d : DotDims ⟨2, ![B, 256]⟩ ⟨2, ![256, 256]⟩ ⟨2, ![B, 256]⟩) (hd : d = DotDims.plain B 256 256)
    (A : FVec Ideal ⟨2, ![B, 256]⟩ .bf16) (x : FVec Ideal ⟨2, ![B, 256]⟩ .f32) (wl wr : FVec Ideal ⟨2, ![256, 256]⟩ .bf16)
    (bl : FVec Ideal ⟨2, ![1, 256]⟩ .f32)
    (hwl hwr : (⟨2, ![256, 256]⟩ : Shape).ShapeCasts ⟨2, ![256, 256]⟩) (hbl : (⟨2, ![1, 256]⟩ : Shape).ShapeCasts ⟨2, ![1, 256]⟩)
    (hb : (⟨2, ![1, 256]⟩ : Shape).Broadcasts ⟨2, ![B, 256]⟩) (hlt : FTy.bits .bf16 < FTy.bits .f32) :
    addf (maximumf (addf (addf (matmul d none A (shapeCast ⟨2, ![256, 256]⟩ wl hwl) (constant ⟨2, ![B, 256]⟩ .f32 0x00000000#32))
              (broadcastTo ⟨2, ![B, 256]⟩ (shapeCast ⟨2, ![1, 256]⟩ bl hbl) hb))
            (matmul d none (truncf .bf16 x hlt) (shapeCast ⟨2, ![256, 256]⟩ wr hwr) (constant ⟨2, ![B, 256]⟩ .f32 0x00000000#32)))
          (broadcast ⟨2, ![B, 256]⟩ (Scalar.ofBits (F := Ideal) .f32 0x00000000#32))) x
      = graphLayer zeroWord A x wl wr (fun j => bl (ix2 (n0 := 1) (n1 := 256) (0 : Fin 1) j)) := by
  subst hd
  funext i
  obtain ⟨r, k, rfl⟩ : ∃ (r : Fin B) (k : Fin 256), i = ix2 r k := ⟨i 0, i 1, eq_ix2 i⟩
  rw [shapeCast_self, shapeCast_self, shapeCast_self]
  show max ((FloatOps.matmul (DotDims.plain B 256 256) none A wl (constant ⟨2, ![B, 256]⟩ .f32 0x00000000#32) (ix2 r k)
          + broadcastTo ⟨2, ![B, 256]⟩ bl hb (ix2 r k))
        + FloatOps.matmul (DotDims.plain B 256 256) none x wr (constant ⟨2, ![B, 256]⟩ .f32 0x00000000#32) (ix2 r k)) zeroWord
      + x (ix2 r k) = _
  rw [matmul_zero_plain, matmul_zero_plain, broadcastTo_1b_ab_apply]
  rfl

/-- A product into zero, the bias row, the maximum with the zero word: `dense`. -/
theorem denseBlock (d : DotDims ⟨2, ![B, K]⟩ ⟨2, ![K, N]⟩ ⟨2, ![B, N]⟩) (hd : d = DotDims.plain B K N)
    (h : FVec Ideal ⟨2, ![B, K]⟩ .f32) (w : FVec Ideal ⟨2, ![K, N]⟩ .bf16) (b : FVec Ideal ⟨2, ![1, N]⟩ .f32)
    (hw : (⟨2, ![K, N]⟩ : Shape).ShapeCasts ⟨2, ![K, N]⟩) (hbc : (⟨2, ![1, N]⟩ : Shape).ShapeCasts ⟨2, ![1, N]⟩)
    (hb : (⟨2, ![1, N]⟩ : Shape).Broadcasts ⟨2, ![B, N]⟩) (hlt : FTy.bits .bf16 < FTy.bits .f32) :
    maximumf (addf (matmul d none (truncf .bf16 h hlt) (shapeCast ⟨2, ![K, N]⟩ w hw) (constant ⟨2, ![B, N]⟩ .f32 0x00000000#32))
          (broadcastTo ⟨2, ![B, N]⟩ (shapeCast ⟨2, ![1, N]⟩ b hbc) hb))
        (broadcast ⟨2, ![B, N]⟩ (Scalar.ofBits (F := Ideal) .f32 0x00000000#32))
      = dense zeroWord h w (fun j => b (ix2 (n0 := 1) (n1 := N) (0 : Fin 1) j)) := by
  subst hd
  funext i
  obtain ⟨r, k, rfl⟩ : ∃ (r : Fin B) (k : Fin N), i = ix2 r k := ⟨i 0, i 1, eq_ix2 i⟩
  rw [shapeCast_self, shapeCast_self]
  show max (FloatOps.matmul (DotDims.plain B K N) none h w (constant ⟨2, ![B, N]⟩ .f32 0x00000000#32) (ix2 r k)
          + broadcastTo ⟨2, ![B, N]⟩ b hb (ix2 r k)) zeroWord = _
  rw [matmul_zero_plain, broadcastTo_1b_ab_apply]
  rfl

/-- The product with one weight row summed along the row, plus the bias: `head`. -/
theorem headBlock (h : FVec Ideal ⟨2, ![B, 32]⟩ .f32) (w : FVec Ideal ⟨2, ![1, 32]⟩ .f32) (b : FVec Ideal ⟨2, ![1, 1]⟩ .f32)
    (hbw : (⟨2, ![1, 32]⟩ : Shape).Broadcasts ⟨2, ![B, 32]⟩)
    (hred : (⟨2, ![B, 32]⟩ : Shape).Reduces [(1 : Fin 2)] ⟨1, ![B]⟩) (hφ : FKind.Formats .f32)
    (hacc : (0x00000000#32 : BitVec (FTy.bits .f32)) = FKind.add.neutral .f32 hφ)
    (hsc : (⟨1, ![B]⟩ : Shape).ShapeCasts ⟨2, ![B, 1]⟩) (hb1 : (⟨2, ![1, 1]⟩ : Shape).ShapeCasts ⟨2, ![1, 1]⟩)
    (hbb : (⟨2, ![1, 1]⟩ : Shape).Broadcasts ⟨2, ![B, 1]⟩) :
    addf (shapeCast ⟨2, ![B, 1]⟩ (multiReduction .add [(1 : Fin 2)] ⟨1, ![B]⟩ (mulf h (broadcastTo ⟨2, ![B, 32]⟩ w hbw)) 0x00000000#32 hred hφ hacc) hsc)
        (broadcastTo ⟨2, ![B, 1]⟩ (shapeCast ⟨2, ![1, 1]⟩ b hb1) hbb)
      = head h (fun k => w (ix2 (n0 := 1) (n1 := 32) (0 : Fin 1) k)) (b (ix2 (n0 := 1) (n1 := 1) (0 : Fin 1) (0 : Fin 1))) := by
  funext i
  obtain ⟨r, u, rfl⟩ : ∃ (r : Fin B) (u : Fin 1), i = ix2 r u := ⟨i 0, i 1, eq_ix2 i⟩
  rw [shapeCast_self]
  show shapeCast ⟨2, ![B, 1]⟩ (multiReduction .add [(1 : Fin 2)] ⟨1, ![B]⟩ (mulf h (broadcastTo ⟨2, ![B, 32]⟩ w hbw)) 0x00000000#32 hred hφ hacc) hsc (ix2 r u)
      + broadcastTo ⟨2, ![B, 1]⟩ b hbb (ix2 r u) = _
  rw [Cert.LibLayout.shapeCast_a_a1_apply, Cert.LibRows.rowSum_apply, broadcastTo_1b_ab_apply]
  have hu : u = (0 : Fin 1) := Subsingleton.elim _ _
  subst hu
  show (∑ s : Fin 32, h (ix2 r s) * broadcastTo ⟨2, ![B, 32]⟩ w hbw (ix2 r s)) + _ = (∑ k : Fin 32, h (ix2 r k) * w (ix2 (0 : Fin 1) k)) + _
  rw [Finset.sum_congr rfl fun s _ => congrArg (fun v => h (ix2 r s) * v) (broadcastTo_1b_ab_apply w hbw r s)]

end Cert.NodeNet.Block

namespace Cert.KernelIdeal.Body

open Idealize.ShloMosaic Idealize.ShloMosaic.ValueIdx Cert.KernelIdeal Cert.KernelIdeal.Gen Cert.NodeNet Cert.NodeNet.Block

/-- What the body stores for one block of 2000 rows: the whole map of `NodeNet` applied to the loaded blocks — the
    neighbour sums `x0` scaled by the reciprocal counts `x2`, the node features `x1`, the weights `x3`, `x5`, `x6`, `x8`,
    the bias rows `x4`, `x7`, `x9`, the last layer's weight row `x10` and its bias `x11`. -/
theorem body_eq (x0 x1 : Vec Ideal S2000x256 .f32) (x2 : Vec Ideal S2000x1 .f32) (x3 : Vec Ideal S256x256 .bf16)
    (x4 : Vec Ideal S1x256 .f32) (x5 : Vec Ideal S256x256 .bf16) (x6 : Vec Ideal S256x128 .bf16) (x7 : Vec Ideal S1x128 .f32)
    (x8 : Vec Ideal S128x32 .bf16) (x9 x10 : Vec Ideal S1x32 .f32) (x11 : Vec Ideal S1x1 .f32) :
    k0_pay1 (F := Ideal) (k0_pay2 x0 x2 x1 x3 x4 x5 x6 x7) (k0_pay3 x8) x9 x10 x11
      = net zeroWord (scaleRows x0 (fun r => x2 (ix2 (n0 := 2000) (n1 := 1) r (0 : Fin 1)))) x1 x3 x5
          (fun j => x4 (ix2 (n0 := 1) (n1 := 256) (0 : Fin 1) j)) x6 (fun j => x7 (ix2 (n0 := 1) (n1 := 128) (0 : Fin 1) j))
          x8 (fun j => x9 (ix2 (n0 := 1) (n1 := 32) (0 : Fin 1) j)) (fun k => x10 (ix2 (n0 := 1) (n1 := 32) (0 : Fin 1) k))
          (x11 (ix2 (n0 := 1) (n1 := 1) (0 : Fin 1) (0 : Fin 1))) := by
  unfold k0_pay1 k0_pay2 k0_pay3
  dsimp only
  rw [meanBlock, graphBlock dot_S2000x256_S256x256_S2000x256_1_0_0_1_n_n rfl, denseBlock dot_S2000x256_S256x128_S2000x128_1_0_0_1_n_n rfl,
    denseBlock dot_S2000x128_S128x32_S2000x32_1_0_0_1_n_n rfl]
  exact headBlock _ x10 x11 _ _ _ _ _ _ _

end Cert.KernelIdeal.Body

end
-- ==== Proof.LibWords.lean ====
/-
  The two float literals whose values the proof uses, as the extended reals their binary words denote: `1.0` is `1` and
  `3.0` is the real `3`. (The zero word is the library's `Ideal.ofBits_zero_f32`.)
-/
import Idealize.ShloMosaic.PureOps.Ideal
import Idealize.ShloMosaic.PureOps.Ideal.Laws

noncomputable section

namespace Cert.Words

open Idealize.ShloMosaic

/-- The word of `1.0` denotes `1`. -/
theorem one : Ideal.ofBits .f32 0x3F800000#32 = 1 := by
  simp [Ideal.ofBits, Ideal.ieee, -EReal.coe_mul]; norm_num

/-- The word of `3.0` denotes the real `3`. -/
theorem three : Ideal.ofBits .f32 0x40400000#32 = ((3 : ℝ) : EReal) := by
  simp [Ideal.ofBits, Ideal.ieee, -EReal.coe_mul]; norm_num

end Cert.Words

end
-- ==== Proof.HostSide.lean ====
/-
  What the region finds in the arrays its windows stage.

  Before the region the program gathers the rows of the node features named by the edges' sources and adds each into
  the row of its destination (the neighbour sums), counts the edges of each destination, clamps the counts below at one
  and takes their reciprocals as a column; it transposes the four weight matrices and recasts the bias vectors as rows.
  Each array is read here as the value of those operations of the argument arrays. The neighbour sums and the clamped
  counts are the very operations the reference applies, so they are named by the reference's stages.
-/
import proofs.«101585_j23192823398472_2_alg».proof.Proof.Gen.KernelIdeal.Frame
import proofs.«101585_j23192823398472_2_alg».proof.Proof.Gen.ReferenceIdeal.Read
import Idealize.ShloMosaic.Lib.StableHlo.Run
import Idealize.ShloMosaic.Lib.ValueLayout
import proofs.«101585_j23192823398472_2_alg».proof.Proof.LibLayout
import proofs.«101585_j23192823398472_2_alg».proof.Proof.LibWords

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The host's quotient read at an index. -/
theorem hostDivf_apply {s : Shape} (x y : FVec Ideal s .f32) (i : s.Idx) : Host.divf x y i = Ideal.div (x i) (y i) := rfl

/-- The neighbour sums: the reference's scatter-add of the gathered rows. -/
theorem agg_eq (c : Dev nD) :
    (V m c main_v13 : S100000x256.Idx → EReal)
      = Cert.ReferenceIdeal.Read.val_main_v13 (F := Ideal) (m ((c : Thread nD τ).loc main_arg0)) (m ((c : Thread nD τ).loc main_arg1)) := by
  dsimp only [V, hostOps0]
  after_results_simp
  rfl

/-- The column of reciprocal counts, at node `r`: one over the reference's clamped count. -/
theorem inv_apply (c : Dev nD) (r : Fin 100000) :
    (V m c main_v22 : S100000x1.Idx → EReal) (ix2 (n0 := 100000) (n1 := 1) r (0 : Fin 1))
      = Ideal.div 1 (Cert.ReferenceIdeal.Read.val_main_v19 (F := Ideal) (m ((c : Thread nD τ).loc main_arg1)) (ix1 r)) := by
  have e : (V m c main_v22 : S100000x1.Idx → EReal)
      = shapeCast S100000x1 (Host.divf (broadcastInDim S100000 ![] bcast_S_S100000 (constant (F := Ideal) S_ .f32 0x3F800000#32))
          (Cert.ReferenceIdeal.Read.val_main_v19 (F := Ideal) (m ((c : Thread nD τ).loc main_arg1)))) shapeCasts_S100000_S100000x1 := by
    dsimp only [V, hostOps0]
    after_results_simp
    rfl
  rw [e, Cert.LibLayout.shapeCast_a_a1_apply]
  have h1 : broadcastInDim S100000 ![] bcast_S_S100000 (constant (F := Ideal) S_ .f32 0x3F800000#32) (ix1 r) = (1 : EReal) := by
    rw [broadcastInDim_apply _ bcast_S_S100000 (constant (F := Ideal) S_ .f32 0x3F800000#32) (ix1 r) ix0 (fun a => a.elim0)]
    simp only [constant, Ideal.ofBits_def, Cert.Words.one]
  rw [hostDivf_apply, h1]

/-- The four weight matrices, transposed (narrowing the float format changes nothing): the reference's transposes. -/
theorem wl_eq (c : Dev nD) : (V m c main_v24 : S256x256.Idx → EReal)
    = Cert.ReferenceIdeal.Read.val_main_v23 (F := Ideal) (m ((c : Thread nD τ).loc main_arg2)) := by
  dsimp only [V, hostOps0]
  after_results_simp
  rfl

theorem wr_eq (c : Dev nD) : (V m c main_v26 : S256x256.Idx → EReal)
    = Cert.ReferenceIdeal.Read.val_main_v28 (F := Ideal) (m ((c : Thread nD τ).loc main_arg4)) := by
  dsimp only [V, hostOps0]
  after_results_simp
  rfl

theorem w1_eq (c : Dev nD) : (V m c main_v28 : S256x128.Idx → EReal)
    = Cert.ReferenceIdeal.Read.val_main_v33 (F := Ideal) (m ((c : Thread nD τ).loc main_arg5)) := by
  dsimp only [V, hostOps0]
  after_results_simp
  rfl

theorem w2_eq (c : Dev nD) : (V m c main_v30 : S128x32.Idx → EReal)
    = Cert.ReferenceIdeal.Read.val_main_v39 (F := Ideal) (m ((c : Thread nD τ).loc main_arg7)) := by
  dsimp only [V, hostOps0]
  after_results_simp
  rfl

/-- The bias vectors recast as rows: entry `(0, j)` is entry `j` of the vector. -/
theorem bl_apply (c : Dev nD) (j : Fin 256) :
    (V m c main_v31 : S1x256.Idx → EReal) (ix2 (n0 := 1) (n1 := 256) (0 : Fin 1) j) = (m ((c : Thread nD τ).loc main_arg3) : S256.Idx → EReal) (ix1 j) := by
  have e : (V m c main_v31 : S1x256.Idx → EReal) = shapeCast S1x256 (m ((c : Thread nD τ).loc main_arg3) : S256.Idx → EReal) shapeCasts_S256_S1x256 := by
    dsimp only [V, hostOps0]
    after_results_simp
    rfl
  rw [e, shapeCast_a_1a_apply]

theorem b1_apply (c : Dev nD) (j : Fin 128) :
    (V m c main_v32 : S1x128.Idx → EReal) (ix2 (n0 := 1) (n1 := 128) (0 : Fin 1) j) = (m ((c : Thread nD τ).loc main_arg6) : S128.Idx → EReal) (ix1 j) := by
  have e : (V m c main_v32 : S1x128.Idx → EReal) = shapeCast S1x128 (m ((c : Thread nD τ).loc main_arg6) : S128.Idx → EReal) shapeCasts_S128_S1x128 := by
    dsimp only [V, hostOps0]
    after_results_simp
    rfl
  rw [e, shapeCast_a_1a_apply]

theorem b2_apply (c : Dev nD) (j : Fin 32) :
    (V m c main_v33 : S1x32.Idx → EReal) (ix2 (n0 := 1) (n1 := 32) (0 : Fin 1) j) = (m ((c : Thread nD τ).loc main_arg8) : S32.Idx → EReal) (ix1 j) := by
  have e : (V m c main_v33 : S1x32.Idx → EReal) = shapeCast S1x32 (m ((c : Thread nD τ).loc main_arg8) : S32.Idx → EReal) shapeCasts_S32_S1x32 := by
    dsimp only [V, hostOps0]
    after_results_simp
    rfl
  rw [e, shapeCast_a_1a_apply]

theorem b3_apply (c : Dev nD) :
    (V m c main_v34 : S1x1.Idx → EReal) (ix2 (n0 := 1) (n1 := 1) (0 : Fin 1) (0 : Fin 1)) = (m ((c : Thread nD τ).loc main_arg10) : S1.Idx → EReal) (ix1 (0 : Fin 1)) := by
  have e : (V m c main_v34 : S1x1.Idx → EReal) = shapeCast S1x1 (m ((c : Thread nD τ).loc main_arg10) : S1.Idx → EReal) shapeCasts_S1_S1x1 := by
    dsimp only [V, hostOps0]
    after_results_simp
    rfl
  rw [e, shapeCast_a_1a_apply]

end Cert.KernelIdeal.HostSide

end
-- ==== Proof.Whole.lean ====
/-
  The whole computation as ONE function of the argument arrays, and the reference program read as that function.

  With `agg` the neighbour sums (the reference's scatter-add of the gathered rows) and `cmax r` the number of edges into
  node `r` clamped below at one, the result at node `r` is the map of `NodeNet`:
  `net (agg / cmax) x Wlᵀ Wrᵀ bl W1ᵀ b1 W2ᵀ b2 W3 b3`. The reference computes exactly these stages on whole arrays:
  it divides `agg` by the clamped counts repeated along the rows, takes general dot products with the transposed
  weights, adds the biases repeated over the rows and clips at zero; its last product is with `W3` transposed to a
  column. A clamped count is a maximum with one, hence never zero, so the mean is also `agg` times the reciprocal
  count (`G_scaled`) — the form in which the kernel computes it.
-/
import proofs.«101585_j23192823398472_2_alg».proof.Proof.Gen.ReferenceIdeal.Read
import proofs.«101585_j23192823398472_2_alg».proof.Proof.NodeNet
import proofs.«101585_j23192823398472_2_alg».proof.Proof.LibWords

noncomputable section

open scoped BigOperators

namespace Cert.ReferenceIdeal.Whole

open Cert.ReferenceIdeal Cert.ReferenceIdeal.Read Idealize.ShloMosaic Idealize.ShloMosaic.ValueIdx Idealize.ShloMosaic.PlainProduct Cert.NodeNet

variable (x0 : (⟨S100000x256, .f32⟩ : BufTy).Contents (Elt Ideal)) (x1 : (⟨S2x800000, .i32⟩ : BufTy).Contents (Elt Ideal))
  (x2 : (⟨S256x256, .f32⟩ : BufTy).Contents (Elt Ideal)) (x3 : (⟨S256, .f32⟩ : BufTy).Contents (Elt Ideal))
  (x4 : (⟨S256x256, .f32⟩ : BufTy).Contents (Elt Ideal)) (x5 : (⟨S128x256, .f32⟩ : BufTy).Contents (Elt Ideal))
  (x6 : (⟨S128, .f32⟩ : BufTy).Contents (Elt Ideal)) (x7 : (⟨S32x128, .f32⟩ : BufTy).Contents (Elt Ideal))
  (x8 : (⟨S32, .f32⟩ : BufTy).Contents (Elt Ideal)) (x9 : (⟨S1x32, .f32⟩ : BufTy).Contents (Elt Ideal))
  (x10 : (⟨S1, .f32⟩ : BufTy).Contents (Elt Ideal))

/-- The number of edges into node `r`, clamped below at one. -/
def cmax : Fin 100000 → EReal := fun r => val_main_v19 (F := Ideal) x1 (ix1 r)

/-- The whole result: the map of `NodeNet` of the mean neighbour sums, the node features, the transposed weights and the biases. -/
def G : S100000x1.Idx → EReal :=
  net zeroWord (divRows (val_main_v13 (F := Ideal) x0 x1) (cmax x1)) x0 (val_main_v23 (F := Ideal) x2) (val_main_v28 (F := Ideal) x4)
    (fun j => x3 (ix1 j)) (val_main_v33 (F := Ideal) x5) (fun j => x6 (ix1 j)) (val_main_v39 (F := Ideal) x7) (fun j => x8 (ix1 j))
    (fun k => x9 (ix2 (n0 := 1) (n1 := 32) (0 : Fin 1) k)) (x10 (ix1 (0 : Fin 1)))

/-- A clamped count is not zero: it is a maximum with the word of `1.0`. -/
theorem cmax_ne_zero (r : Fin 100000) : cmax x1 r ≠ 0 := by
  unfold cmax
  rw [val_main_v19_apply, val_main_v18_apply, val_main_cst_3_apply, Ideal.maximumf_def, Ideal.ofBits_def, Cert.Words.one]
  exact Cert.UnitRows.max_one_ne_zero _

/-- The same result with the mean spelt as the neighbour sums times the reciprocal counts. -/
theorem G_scaled : G x0 x1 x2 x3 x4 x5 x6 x7 x8 x9 x10
    = net zeroWord (scaleRows (val_main_v13 (F := Ideal) x0 x1) (fun r => Ideal.div 1 (cmax x1 r))) x0 (val_main_v23 (F := Ideal) x2)
        (val_main_v28 (F := Ideal) x4) (fun j => x3 (ix1 j)) (val_main_v33 (F := Ideal) x5) (fun j => x6 (ix1 j))
        (val_main_v39 (F := Ideal) x7) (fun j => x8 (ix1 j)) (fun k => x9 (ix2 (n0 := 1) (n1 := 32) (0 : Fin 1) k)) (x10 (ix1 (0 : Fin 1))) := by
  unfold G
  rw [scaleRows_eq_divRows (val_main_v13 (F := Ideal) x0 x1) (fun r => Ideal.div 1 (cmax x1 r)) (cmax x1) (fun _ => rfl) (cmax_ne_zero x1)]

/-! ## The reference's stages -/

/-- The reference's mean: the neighbour sums divided by the clamped counts repeated along the rows. -/
theorem mean_eq : val_main_v22 (F := Ideal) x0 x1 = divRows (val_main_v13 (F := Ideal) x0 x1) (cmax x1) := by
  funext i
  rw [val_main_v22_apply, val_main_v21_apply, val_main_v20_apply, Ideal.hostDivf_def]
  have hi : idx_main_v20 (idx_main_v21 i) = ix1 (i 0) := funext fun a => Fin.ext (by match a with | ⟨0, _⟩ => rfl)
  rw [hi]
  rfl

/-- The reference's graph layer. -/
theorem graph_eq : val_main_v32 (F := Ideal) x0 x1 x2 x3 x4
    = graphLayer zeroWord (val_main_v22 (F := Ideal) x0 x1) x0 (val_main_v23 (F := Ideal) x2) (val_main_v28 (F := Ideal) x4) (fun j => x3 (ix1 j)) := by
  unfold val_main_v32 val_main_v31 val_main_v30 val_main_v27 val_main_v24 val_main_v29
  refine graphLayer_host _ rfl _ _ _ _ _ _ _ (fun r k => ?_) (fun i => ?_)
  · rw [val_main_v26_apply, val_main_v25_apply]
    exact congrArg x3 (funext fun a => Fin.ext (by match a with | ⟨0, _⟩ => rfl))
  · rw [val_main_call0_v0_apply, val_main_call0_cst_apply, Ideal.ofBits_def]

/-- The reference's first dense layer. -/
theorem dense1_eq : val_main_v38 (F := Ideal) x0 x1 x2 x3 x4 x5 x6
    = dense zeroWord (val_main_v32 (F := Ideal) x0 x1 x2 x3 x4) (val_main_v33 (F := Ideal) x5) (fun j => x6 (ix1 j)) := by
  unfold val_main_v38 val_main_v37 val_main_v34
  refine dense_host _ rfl _ _ _ _ _ (fun r k => ?_) (fun i => ?_)
  · rw [val_main_v36_apply, val_main_v35_apply]
    exact congrArg x6 (funext fun a => Fin.ext (by match a with | ⟨0, _⟩ => rfl))
  · rw [val_main_call1_v0_apply, val_main_call1_cst_apply, Ideal.ofBits_def]

/-- The reference's second dense layer. -/
theorem dense2_eq : val_main_v44 (F := Ideal) x0 x1 x2 x3 x4 x5 x6 x7 x8
    = dense zeroWord (val_main_v38 (F := Ideal) x0 x1 x2 x3 x4 x5 x6) (val_main_v39 (F := Ideal) x7) (fun j => x8 (ix1 j)) := by
  unfold val_main_v44 val_main_v43 val_main_v40
  refine dense_host _ rfl _ _ _ _ _ (fun r k => ?_) (fun i => ?_)
  · rw [val_main_v42_apply, val_main_v41_apply]
    exact congrArg x8 (funext fun a => Fin.ext (by match a with | ⟨0, _⟩ => rfl))
  · rw [val_main_call2_v0_apply, val_main_call2_cst_apply, Ideal.ofBits_def]

/-- The reference's last layer: the product with `W3` transposed to a column, plus the bias. -/
theorem head_eq : val_main_v49 (F := Ideal) x0 x1 x2 x3 x4 x5 x6 x7 x8 x9 x10
    = head (val_main_v44 (F := Ideal) x0 x1 x2 x3 x4 x5 x6 x7 x8) (fun k => x9 (ix2 (n0 := 1) (n1 := 32) (0 : Fin 1) k)) (x10 (ix1 (0 : Fin 1))) := by
  unfold val_main_v49 val_main_v46
  refine head_host _ rfl _ _ _ _ _ (fun k => ?_) (fun i => ?_)
  · rw [val_main_v45_apply]
    exact congrArg x9 (funext fun a => Fin.ext (by match a with | ⟨0, _⟩ => rfl | ⟨1, _⟩ => rfl))
  · rw [val_main_v48_apply, val_main_v47_apply]
    exact congrArg x10 (funext fun a => Fin.ext (by match a with | ⟨0, _⟩ => rfl))

/-- The reference's result is the whole map. -/
theorem ref_eq : val_main_v49 (F := Ideal) x0 x1 x2 x3 x4 x5 x6 x7 x8 x9 x10 = G x0 x1 x2 x3 x4 x5 x6 x7 x8 x9 x10 := by
  rw [head_eq, dense2_eq, dense1_eq, graph_eq, mean_eq]
  rfl

end Cert.ReferenceIdeal.Whole

end
-- ==== Proof.KernelValue.lean ====
/-
  The kernel's result array after the run: the whole map of the argument arrays.

  The grid has 50 points; point `t` stages rows `2000·t … 2000·t + 1999` of the neighbour sums, of the node features and
  of the column of reciprocal counts, stages the weights and biases whole, and writes rows `2000·t … 2000·t + 1999` of
  the result. What it writes is the map of `NodeNet` of the staged blocks, and row `r` of the map depends on row `r`
  of the row-indexed operands only: so the block written at point `t` is the same block of rows of the map of the whole
  arrays. The 50 blocks cover every row, hence the array ends at the whole map.
-/
import proofs.«101585_j23192823398472_2_alg».proof.Proof.Gen.KernelIdeal.Value
import proofs.«101585_j23192823398472_2_alg».proof.Proof.BlockBody
import proofs.«101585_j23192823398472_2_alg».proof.Proof.HostSide
import proofs.«101585_j23192823398472_2_alg».proof.Proof.Whole

noncomputable section

namespace Cert.KernelIdeal.Result

open Cert.KernelIdeal Cert.KernelIdeal.Gen Idealize.ShloMosaic Idealize.ShloMosaic.TcCoe Idealize.SL.Sem
open Idealize.ShloMosaic.ValueIdx Cert.NodeNet
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- The printed index maps, decided over the 50 grid points: the three row-blocked inputs and the output are at block
    `(t, 0)`, every other input at block `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = t.val ∧ win0_12.index t (1 : Fin 2) = 0) :=
  (by decide +kernel : ∀ t : Fin grid0.N, _)

/-- The row of the whole arrays that row `r` of point `t`'s blocks is. -/
def rowOf (t : Fin cfg0.N) (r : Fin 2000) : Fin 100000 :=
  ⟨t.val * 2000 + r.val, by have ht : t.val < 50 := lt_of_lt_of_eq t.isLt N_0; have hr := r.isLt; omega⟩

/-! ## The staged blocks, read off the arrays the region finds -/

/-- A row-blocked window at point `t` reads rows `2000·t + r` of its array. -/
theorem read_rows0 (A : S100000x256.Idx → EReal) (t : Fin cfg0.N) (r : Fin 2000) (k : Fin 256) :
    (((cfg0.win 0).blk t).view.read (Elt Ideal) A : S2000x256.Idx → EReal) (ix2 r k) = A (ix2 (rowOf t r) k) := by
  obtain ⟨⟨e0, e1⟩, -⟩ := idx_facts t
  rw [View.read_apply]
  show A _ = A _
  congr 1
  funext a
  apply Fin.ext
  match a with
  | ⟨0, _⟩ => show win0_0.index t (0 : Fin 2) * 2000 + 1 * r.val = t.val * 2000 + r.val; omega
  | ⟨1, _⟩ => show win0_0.index t (1 : Fin 2) * 256 + 1 * k.val = k.val; omega

theorem blk0 (c : Dev nD) (t : Fin cfg0.N) (r : Fin 2000) (k : Fin 256) :
    (iblk m c 0 t : S2000x256.Idx → EReal) (ix2 r k) = (V m c main_v13 : S100000x256.Idx → EReal) (ix2 (rowOf t r) k) :=
  read_rows0 (V m c main_v13 : S100000x256.Idx → EReal) t r k

theorem read_rows1 (A : S100000x256.Idx → EReal) (t : Fin cfg0.N) (r : Fin 2000) (k : Fin 256) :
    (((cfg0.win 1).blk t).view.read (Elt Ideal) A : S2000x256.Idx → EReal) (ix2 r k) = A (ix2 (rowOf t r) k) := by
  obtain ⟨-, ⟨e0, e1⟩, -⟩ := idx_facts t
  rw [View.read_apply]
  show A _ = A _
  congr 1
  funext a
  apply Fin.ext
  match a with
  | ⟨0, _⟩ => show win0_1.index t (0 : Fin 2) * 2000 + 1 * r.val = t.val * 2000 + r.val; omega
  | ⟨1, _⟩ => show win0_1.index t (1 : Fin 2) * 256 + 1 * k.val = k.val; omega

theorem blk1 (c : Dev nD) (t : Fin cfg0.N) (r : Fin 2000) (k : Fin 256) :
    (iblk m c 1 t : S2000x256.Idx → EReal) (ix2 r k) = (V m c main_arg0 : S100000x256.Idx → EReal) (ix2 (rowOf t r) k) :=
  read_rows1 (V m c main_arg0 : S100000x256.Idx → EReal) t r k

theorem read_rows2 (A : S100000x1.Idx → EReal) (t : Fin cfg0.N) (r : Fin 2000) :
    (((cfg0.win 2).blk t).view.read (Elt Ideal) A : S2000x1.Idx → EReal) (ix2 r (0 : Fin 1)) = A (ix2 (rowOf t r) (0 : Fin 1)) := by
  obtain ⟨-, -, ⟨e0, e1⟩, -⟩ := idx_facts t
  rw [View.read_apply]
  show A _ = A _
  congr 1
  funext a
  apply Fin.ext
  match a with
  | ⟨0, _⟩ => show win0_2.index t (0 : Fin 2) * 2000 + 1 * r.val = t.val * 2000 + r.val; omega
  | ⟨1, _⟩ => show win0_2.index t (1 : Fin 2) * 1 + 1 * 0 = 0; omega

theorem blk2 (c : Dev nD) (t : Fin cfg0.N) (r : Fin 2000) :
    (iblk m c 2 t : S2000x1.Idx → EReal) (ix2 r (0 : Fin 1)) = (V m c main_v22 : S100000x1.Idx → EReal) (ix2 (rowOf t r) (0 : Fin 1)) :=
  read_rows2 (V m c main_v22 : S100000x1.Idx → EReal) t r

/-- A window staged whole (block `(0, 0)` of an array of the block's own shape) reads the array itself. -/
theorem read_whole3 (A : S256x256.Idx → EReal) (t : Fin cfg0.N) :
    (((cfg0.win 3).blk t).view.read (Elt Ideal) A : S256x256.Idx → EReal) = A := by
  obtain ⟨-, -, -, ⟨e0, e1⟩, -⟩ := idx_facts t
  funext y
  rw [View.read_apply]
  show A _ = A _
  congr 1
  funext a
  apply Fin.ext
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem blk3 (c : Dev nD) (t : Fin cfg0.N) : (iblk m c 3 t : S256x256.Idx → EReal) = (V m c main_v24 : S256x256.Idx → EReal) :=
  read_whole3 (V m c main_v24 : S256x256.Idx → EReal) t

theorem read_whole4 (A : S1x256.Idx → EReal) (t : Fin cfg0.N) :
    (((cfg0.win 4).blk t).view.read (Elt Ideal) A : S1x256.Idx → EReal) = A := by
  obtain ⟨-, -, -, -, ⟨e0, e1⟩, -⟩ := idx_facts t
  funext y
  rw [View.read_apply]
  show A _ = A _
  congr 1
  funext a
  apply Fin.ext
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem blk4 (c : Dev nD) (t : Fin cfg0.N) : (iblk m c 4 t : S1x256.Idx → EReal) = (V m c main_v31 : S1x256.Idx → EReal) :=
  read_whole4 (V m c main_v31 : S1x256.Idx → EReal) t

theorem read_whole5 (A : S256x256.Idx → EReal) (t : Fin cfg0.N) :
    (((cfg0.win 5).blk t).view.read (Elt Ideal) A : S256x256.Idx → EReal) = A := by
  obtain ⟨-, -, -, -, -, ⟨e0, e1⟩, -⟩ := idx_facts t
  funext y
  rw [View.read_apply]
  show A _ = A _
  congr 1
  funext a
  apply Fin.ext
  match a with
  | ⟨0, _⟩ => show win0_5.index t (0 : Fin 2) * 256 + 1 * (y 0).val = (y 0).val; omega
  | ⟨1, _⟩ => show win0_5.index t (1 : Fin 2) * 256 + 1 * (y 1).val = (y 1).val; omega

theorem blk5 (c : Dev nD) (t : Fin cfg0.N) : (iblk m c 5 t : S256x256.Idx → EReal) = (V m c main_v26 : S256x256.Idx → EReal) :=
  read_whole5 (V m c main_v26 : S256x256.Idx → EReal) t

theorem read_whole6 (A : S256x128.Idx → EReal) (t : Fin cfg0.N) :
    (((cfg0.win 6).blk t).view.read (Elt Ideal) A : S256x128.Idx → EReal) = A := by
  obtain ⟨-, -, -, -, -, -, ⟨e0, e1⟩, -⟩ := idx_facts t
  funext y
  rw [View.read_apply]
  show A _ = A _
  congr 1
  funext a
  apply Fin.ext
  match a with
  | ⟨0, _⟩ => show win0_6.index t (0 : Fin 2) * 256 + 1 * (y 0).val = (y 0).val; omega
  | ⟨1, _⟩ => show win0_6.index t (1 : Fin 2) * 128 + 1 * (y 1).val = (y 1).val; omega

theorem blk6 (c : Dev nD) (t : Fin cfg0.N) : (iblk m c 6 t : S256x128.Idx → EReal) = (V m c main_v28 : S256x128.Idx → EReal) :=
  read_whole6 (V m c main_v28 : S256x128.Idx → EReal) t

theorem read_whole7 (A : S1x128.Idx → EReal) (t : Fin cfg0.N) :
    (((cfg0.win 7).blk t).view.read (Elt Ideal) A : S1x128.Idx → EReal) = A := by
  obtain ⟨-, -, -, -, -, -, -, ⟨e0, e1⟩, -⟩ := idx_facts t
  funext y
  rw [View.read_apply]
  show A _ = A _
  congr 1
  funext a
  apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

theorem blk7 (c : Dev nD) (t : Fin cfg0.N) : (iblk m c 7 t : S1x128.Idx → EReal) = (V m c main_v32 : S1x128.Idx → EReal) :=
  read_whole7 (V m c main_v32 : S1x128.Idx → EReal) t

theorem read_whole8 (A : S128x32.Idx → EReal) (t : Fin cfg0.N) :
    (((cfg0.win 8).blk t).view.read (Elt Ideal) A : S128x32.Idx → EReal) = A := by
  obtain ⟨-, -, -, -, -, -, -, -, ⟨e0, e1⟩, -⟩ := idx_facts t
  funext y
  rw [View.read_apply]
  show A _ = A _
  congr 1
  funext a
  apply Fin.ext
  match a with
  | ⟨0, _⟩ => show win0_8.index t (0 : Fin 2) * 128 + 1 * (y 0).val = (y 0).val; omega
  | ⟨1, _⟩ => show win0_8.index t (1 : Fin 2) * 32 + 1 * (y 1).val = (y 1).val; omega

theorem blk8 (c : Dev nD) (t : Fin cfg0.N) : (iblk m c 8 t : S128x32.Idx → EReal) = (V m c main_v30 : S128x32.Idx → EReal) :=
  read_whole8 (V m c main_v30 : S128x32.Idx → EReal) t

theorem read_whole9 (A : S1x32.Idx → EReal) (t : Fin cfg0.N) :
    (((cfg0.win 9).blk t).view.read (Elt Ideal) A : S1x32.Idx → EReal) = A := by
  obtain ⟨-, -, -, -, -, -, -, -, -, ⟨e0, e1⟩, -⟩ := idx_facts t
  funext y
  rw [View.read_apply]
  show A _ = A _
  congr 1
  funext a
  apply Fin.ext
  match a with
  | ⟨0, _⟩ => show win0_9.index t (0 : Fin 2) * 1 + 1 * (y 0).val = (y 0).val; omega
  | ⟨1, _⟩ => show win0_9.index t (1 : Fin 2) * 32 + 1 * (y 1).val = (y 1).val; omega

theorem blk9 (c : Dev nD) (t : Fin cfg0.N) : (iblk m c 9 t : S1x32.Idx → EReal) = (V m c main_v33 : S1x32.Idx → EReal) :=
  read_whole9 (V m c main_v33 : S1x32.Idx → EReal) t

theorem read_whole10 (A : S1x32.Idx → EReal) (t : Fin cfg0.N) :
    (((cfg0.win 10).blk t).view.read (Elt Ideal) A : S1x32.Idx → EReal) = A := by
  obtain ⟨-, -, -, -, -, -, -, -, -, -, ⟨e0, e1⟩, -⟩ := idx_facts t
  funext y
  rw [View.read_apply]
  show A _ = A _
  congr 1
  funext a
  apply Fin.ext
  match a with
  | ⟨0, _⟩ => show win0_10.index t (0 : Fin 2) * 1 + 1 * (y 0).val = (y 0).val; omega
  | ⟨1, _⟩ => show win0_10.index t (1 : Fin 2) * 32 + 1 * (y 1).val = (y 1).val; omega

theorem blk10 (c : Dev nD) (t : Fin cfg0.N) : (iblk m c 10 t : S1x32.Idx → EReal) = (V m c main_arg9 : S1x32.Idx → EReal) :=
  read_whole10 (V m c main_arg9 : S1x32.Idx → EReal) t

theorem read_whole11 (A : S1x1.Idx → EReal) (t : Fin cfg0.N) :
    (((cfg0.win 11).blk t).view.read (Elt Ideal) A : S1x1.Idx → EReal) = A := by
  obtain ⟨-, -, -, -, -, -, -, -, -, -, -, ⟨e0, e1⟩, -⟩ := idx_facts t
  funext y
  rw [View.read_apply]
  show A _ = A _
  congr 1
  funext a
  apply Fin.ext
  match a with
  | ⟨0, _⟩ => show win0_11.index t (0 : Fin 2) * 1 + 1 * (y 0).val = (y 0).val; omega
  | ⟨1, _⟩ => show win0_11.index t (1 : Fin 2) * 1 + 1 * (y 1).val = (y 1).val; omega

theorem blk11 (c : Dev nD) (t : Fin cfg0.N) : (iblk m c 11 t : S1x1.Idx → EReal) = (V m c main_v34 : S1x1.Idx → EReal) :=
  read_whole11 (V m c main_v34 : S1x1.Idx → EReal) t

/-- Row `r` of the block point `t` writes is row `2000·t + r` of the result array. -/
theorem emb12 (t : Fin cfg0.N) (r : Fin 2000) (u : Fin 1) :
    ((cfg0.win 12).blk t).view.emb (ix2 r u) = (ix2 (rowOf t r) u : S100000x1.Idx) := by
  obtain ⟨-, -, -, -, -, -, -, -, -, -, -, -, ⟨e0, e1⟩⟩ := idx_facts t
  funext a
  apply Fin.ext
  match a with
  | ⟨0, _⟩ => show win0_12.index t (0 : Fin 2) * 2000 + 1 * r.val = t.val * 2000 + r.val; omega
  | ⟨1, _⟩ => show win0_12.index t (1 : Fin 2) * 1 + 1 * u.val = u.val; omega

/-- Row `r` of the block point `t` writes is row `2000·t + r` of the result array. -/
theorem read_out (A : S100000x1.Idx → EReal) (t : Fin cfg0.N) (r : Fin 2000) (u : Fin 1) :
    (((cfg0.win 12).blk t).view.read (Elt Ideal) A : S2000x1.Idx → EReal) (ix2 r u) = A (ix2 (rowOf t r) u) := by
  obtain ⟨-, -, -, -, -, -, -, -, -, -, -, -, ⟨e0, e1⟩⟩ := idx_facts t
  rw [View.read_apply]
  show A _ = A _
  congr 1
  funext a
  apply Fin.ext
  match a with
  | ⟨0, _⟩ => show win0_12.index t (0 : Fin 2) * 2000 + 1 * r.val = t.val * 2000 + r.val; omega
  | ⟨1, _⟩ => show win0_12.index t (1 : Fin 2) * 1 + 1 * u.val = u.val; omega

/-- The output's blocks lie inside the array, so what is written back is the whole staged block. -/
theorem cut_apply (X : S2000x1.Idx → EReal) (t : Fin cfg0.N) (j : S2000x1.Idx) :
    ((cfg0.win 12).cut (grid0.coords t) X : S2000x1.Idx → EReal) j = X j := rfl

/-! ## The whole map, and the block each point writes -/

/-- The whole map of this run's argument arrays. -/
def Gk (c : Dev nD) : S100000x1.Idx → EReal :=
  Cert.ReferenceIdeal.Whole.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The whole map over the arrays as the region finds them: the neighbour sums scaled by the column of reciprocal counts,
    the node features, the transposed weights, the bias rows. -/
theorem Gk_eq (c : Dev nD) : Gk m c
    = net zeroWord (scaleRows (V m c main_v13 : S100000x256.Idx → EReal) (fun r => (V m c main_v22 : S100000x1.Idx → EReal) (ix2 (n0 := 100000) (n1 := 1) r (0 : Fin 1))))
        (V m c main_arg0 : S100000x256.Idx → EReal) (V m c main_v24 : S256x256.Idx → EReal) (V m c main_v26 : S256x256.Idx → EReal)
        (fun j => (V m c main_v31 : S1x256.Idx → EReal) (ix2 (n0 := 1) (n1 := 256) (0 : Fin 1) j)) (V m c main_v28 : S256x128.Idx → EReal)
        (fun j => (V m c main_v32 : S1x128.Idx → EReal) (ix2 (n0 := 1) (n1 := 128) (0 : Fin 1) j)) (V m c main_v30 : S128x32.Idx → EReal)
        (fun j => (V m c main_v33 : S1x32.Idx → EReal) (ix2 (n0 := 1) (n1 := 32) (0 : Fin 1) j))
        (fun k => (V m c main_arg9 : S1x32.Idx → EReal) (ix2 (n0 := 1) (n1 := 32) (0 : Fin 1) k))
        ((V m c main_v34 : S1x1.Idx → EReal) (ix2 (n0 := 1) (n1 := 1) (0 : Fin 1) (0 : Fin 1))) := by
  unfold Gk
  rw [Cert.ReferenceIdeal.Whole.G_scaled, HostSide.agg_eq m c, V_main_arg0 m c, HostSide.wl_eq m c, HostSide.wr_eq m c, HostSide.w1_eq m c,
    HostSide.w2_eq m c, V_main_arg9 m c, funext (HostSide.inv_apply m c), funext (HostSide.bl_apply m c), funext (HostSide.b1_apply m c),
    funext (HostSide.b2_apply m c), HostSide.b3_apply m c]
  rfl

/-- The map of the blocks staged at point `t`, at row `r`, is the whole map at row `2000·t + r`. -/
theorem block_value (c : Dev nD) (t : Fin cfg0.N) (r : Fin 2000) (u : Fin 1) :
    net zeroWord (scaleRows (iblk m c 0 t : S2000x256.Idx → EReal) (fun r => (iblk m c 2 t : S2000x1.Idx → EReal) (ix2 (n0 := 2000) (n1 := 1) r (0 : Fin 1))))
        (iblk m c 1 t : S2000x256.Idx → EReal) (iblk m c 3 t : S256x256.Idx → EReal) (iblk m c 5 t : S256x256.Idx → EReal)
        (fun j => (iblk m c 4 t : S1x256.Idx → EReal) (ix2 (n0 := 1) (n1 := 256) (0 : Fin 1) j)) (iblk m c 6 t : S256x128.Idx → EReal)
        (fun j => (iblk m c 7 t : S1x128.Idx → EReal) (ix2 (n0 := 1) (n1 := 128) (0 : Fin 1) j)) (iblk m c 8 t : S128x32.Idx → EReal)
        (fun j => (iblk m c 9 t : S1x32.Idx → EReal) (ix2 (n0 := 1) (n1 := 32) (0 : Fin 1) j))
        (fun k => (iblk m c 10 t : S1x32.Idx → EReal) (ix2 (n0 := 1) (n1 := 32) (0 : Fin 1) k))
        ((iblk m c 11 t : S1x1.Idx → EReal) (ix2 (n0 := 1) (n1 := 1) (0 : Fin 1) (0 : Fin 1))) (ix2 (n0 := 2000) (n1 := 1) r u)
      = Gk m c (ix2 (rowOf t r) u) := by
  rw [blk3 m c t, blk4 m c t, blk5 m c t, blk6 m c t, blk7 m c t, blk8 m c t, blk9 m c t, blk10 m c t, blk11 m c t, Gk_eq m c]
  exact net_rows zeroWord (V m c main_v13 : S100000x256.Idx → EReal) (V m c main_arg0 : S100000x256.Idx → EReal)
    (fun r => (V m c main_v22 : S100000x1.Idx → EReal) (ix2 (n0 := 100000) (n1 := 1) r (0 : Fin 1))) _ _ _ _ _ _ _ _ _
    (iblk m c 0 t : S2000x256.Idx → EReal) (iblk m c 1 t : S2000x256.Idx → EReal) (fun r => (iblk m c 2 t : S2000x1.Idx → EReal) (ix2 (n0 := 2000) (n1 := 1) r (0 : Fin 1))) (rowOf t)
    (blk0 m c t) (blk2 m c t) (blk1 m c t) r u

/-- WHAT POINT `t` WRITES BACK is block `t` of the whole map. -/
theorem flushed_eq (c : Dev nD) (t : Fin cfg0.N) :
    (dats m 0 c).flushed 12 t = ((cfg0.win 12).blk t).view.read (Elt Ideal) (Gk m c) := by
  rw [Cert.KernelIdeal.Value.flushed12]
  unfold out0_12
  rw [View.canon_unit_zero origin_zero]
  simp only [View.ld_unit_zero (S := S2000x256) origin_zero, View.ld_unit_zero (S := S2000x1) origin_zero, View.ld_unit_zero (S := S256x256) origin_zero, View.ld_unit_zero (S := S1x256) origin_zero, View.ld_unit_zero (S := S256x128) origin_zero, View.ld_unit_zero (S := S1x128) origin_zero, View.ld_unit_zero (S := S128x32) origin_zero, View.ld_unit_zero (S := S1x32) origin_zero, View.ld_unit_zero (S := S1x1) origin_zero]
  rw [Cert.KernelIdeal.Body.body_eq]
  funext j
  obtain ⟨r, u, rfl⟩ : ∃ (r : Fin 2000) (u : Fin 1), j = ix2 r u := ⟨j 0, j 1, eq_ix2 j⟩
  rw [cut_apply, read_out]
  exact block_value m c t r u

/-! ## The blocks cover the array -/

/-- An index of the result array is in point `t`'s block iff each coordinate is in the block's range on its axis. -/
theorem mem_blk (t : Fin cfg0.N) (i : S100000x1.Idx) :
    i ∈ ((cfg0.win 12).blk t).view.set ↔ ∀ a : Fin 2, win0_12.index t a * S2000x1.size a ≤ (i a).val ∧ (i a).val < win0_12.index t a * S2000x1.size a + S2000x1.size a := by
  show i ∈ ((View.whole main_v35).slice (win0_12.rect t)).set ↔ _
  rw [View.set_slice_whole, Rect.mem_set_unit]
  exact Iff.rfl

/-- Row `i` is written at point `i / 2000`. -/
theorem cover (i : S100000x1.Idx) : ∃ t : Fin cfg0.N, (cfg0.win 12).flush t = true ∧ i ∈ ((cfg0.win 12).blk t).view.set := by
  have hi0 : (i 0).val < 100000 := (i 0).isLt
  have hi1 : (i 1).val < 1 := (i 1).isLt
  have ht : (i 0).val / 2000 < cfg0.N := by rw [show cfg0.N = 50 from N_0]; omega
  obtain ⟨-, -, -, -, -, -, -, -, -, -, -, -, ⟨e0, e1⟩⟩ := idx_facts ⟨(i 0).val / 2000, ht⟩
  have e0' : win0_12.index ⟨(i 0).val / 2000, ht⟩ (0 : Fin 2) = (i 0).val / 2000 := e0
  refine ⟨⟨(i 0).val / 2000, ht⟩, flush0_12 _, ?_⟩
  rw [mem_blk]
  intro a
  match a with
  | ⟨0, _⟩ =>
    show win0_12.index ⟨(i 0).val / 2000, ht⟩ (0 : Fin 2) * 2000 ≤ (i 0).val
      ∧ (i 0).val < win0_12.index ⟨(i 0).val / 2000, ht⟩ (0 : Fin 2) * 2000 + 2000
    omega
  | ⟨1, _⟩ =>
    show win0_12.index ⟨(i 0).val / 2000, ht⟩ (1 : Fin 2) * 1 ≤ (i 1).val
      ∧ (i 1).val < win0_12.index ⟨(i 0).val / 2000, ht⟩ (1 : Fin 2) * 1 + 1
    omega

/-- THE ARRAY after the run is the whole map. -/
theorem final (c : Dev nD) : (dats m 0 c).arrAt 12 cfg0.N = Gk m c :=
  (dats m 0 c).arrAt_eq_of_cover 12 (Gk m c) (fun t _ => flushed_eq m c t) cover

/-- The run, read: the result array at the whole map of the arguments, the arguments unchanged. -/
theorem run : θ_run defs (onTc (τ := τ) (main (F := Ideal))) ⟨m, fun _ => 0, ρ⟩ fun r => ∀ c : Dev nD,
      r.2.mem ((c : Thread nD τ).loc main_v35) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelIdeal.Result

end
-- ==== Proof.lean ====
/-
  A graph layer with mean aggregation and a residual term, followed by a three-layer perceptron, over 100000 nodes:
  the kernel against its reference, on the extended reals.

  Both programs first form, on the host and by the same operations, the neighbour sums `agg` (the rows of the node
  features gathered by the edges' sources and added into the rows of their destinations) and the number of edges into
  each node clamped below at one, `cmax`. The reference then computes, on whole arrays,

      mean = agg / cmax,   g = max ((mean · Wlᵀ + bl) + x · Wrᵀ, 0) + x,
      h₁ = max (g · W1ᵀ + b1, 0),   h₂ = max (h₁ · W2ᵀ + b2, 0),   out = h₂ · W3ᵀ + b3.

  The kernel takes the reciprocals `1 / cmax` on the host, and on each of 50 blocks of 2000 rows computes
  `mean = agg · (1 / cmax)`, the same three products (into a zero accumulator, the operands narrowed to a shorter float
  format, which is the identity here), the same biases and maxima, and the last layer as a product with the one row of
  `W3` summed along each row. Three facts join the two sides: a clamped count is a maximum with one, hence not zero, and
  off zero the quotient IS the product with the inverse, so `agg · (1 / cmax) = agg / cmax` entry by entry with nothing
  rearranged (no entry needs to be finite); a matrix product into zero, a general dot product and a row sum of products
  are one finite sum of products; and row `r` of every stage depends on row `r` of the row-indexed operands only, so
  the 50 blocks of rows the kernel writes are the rows of the whole map, and they cover the array.

  The kernel's idealization rewrote no operation, so there is nothing to preserve; the three frames are the generated
  runs.
-/
import proofs.«101585_j23192823398472_2_alg».proof.Defs
import proofs.«101585_j23192823398472_2_alg».proof.Proof.Gen.Kernel
import proofs.«101585_j23192823398472_2_alg».proof.Proof.Gen.Kernel.Skeleton
import proofs.«101585_j23192823398472_2_alg».proof.Proof.Gen.Kernel.Launch
import proofs.«101585_j23192823398472_2_alg».proof.Proof.Gen.Kernel.Points
import proofs.«101585_j23192823398472_2_alg».proof.Proof.Gen.Kernel.Frame
import proofs.«101585_j23192823398472_2_alg».proof.Proof.Gen.KernelIdeal
import proofs.«101585_j23192823398472_2_alg».proof.Proof.Gen.KernelIdeal.Skeleton
import proofs.«101585_j23192823398472_2_alg».proof.Proof.Gen.KernelIdeal.Launch
import proofs.«101585_j23192823398472_2_alg».proof.Proof.Gen.KernelIdeal.Points
import proofs.«101585_j23192823398472_2_alg».proof.Proof.Gen.KernelIdeal.Frame
import proofs.«101585_j23192823398472_2_alg».proof.Proof.Gen.ReferenceIdeal
import proofs.«101585_j23192823398472_2_alg».proof.Proof.Gen.Pre_finite_inputs
import proofs.«101585_j23192823398472_2_alg».proof.Proof.Gen.KernelIdeal.Value
import proofs.«101585_j23192823398472_2_alg».proof.Proof.Gen.ReferenceIdeal.Run
import proofs.«101585_j23192823398472_2_alg».proof.Proof.Gen.ReferenceIdeal.Read
import proofs.«101585_j23192823398472_2_alg».proof.Proof.KernelValue
import proofs.«101585_j23192823398472_2_alg».proof.Proof.Whole
import Idealize.ShloMosaic.Adequacy
import Idealize.ShloMosaic.Init

noncomputable section

namespace Cert.Proof

open Idealize.ShloMosaic Idealize.SL.Sem

/-- The kernel as printed runs, faults nowhere and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals the kernel's result array ends at the whole map of its arguments, and the reference's result
    is the same map of arguments that agree. -/
theorem algebraic : Cert.algebraic_KernelIdeal_ReferenceIdeal := by
  intro m ρ m' ρ' _ hagree
  refine ⟨fun c => Cert.KernelIdeal.Result.Gk m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v49_eq, Cert.ReferenceIdeal.Whole.ref_eq, h0, h1, h2, h3, h4, h5, h6, h7, h8, h9, h10]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
